-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel

variable [Facts]

def fn {F : FTy → Type} [FloatOps F] (main_arg0 : FVec F S16x2048x512 .f32) (main_arg1 : FVec F S16x2048x512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  main_v8
-- ==== Kernel.lean ====
abbrev S16x2048x512 : Shape := ⟨3, ![16, 2048, 512]⟩
abbrev S16x2048x2048 : Shape := ⟨3, ![16, 2048, 2048]⟩
abbrev S1x512x512 : Shape := ⟨3, ![1, 512, 512]⟩
abbrev S1x2048x512 : Shape := ⟨3, ![1, 2048, 512]⟩
abbrev S1x512x2048 : Shape := ⟨3, ![1, 512, 2048]⟩
abbrev S512x512 : Shape := ⟨2, ![512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .bf16⟩
  | .hbm, ⟨3, _⟩ => ⟨S16x2048x2048, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .f32⟩
  | .local _ .vmem, ⟨5, _⟩ => ⟨S1x512x2048, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x2048x512.size a
  hwx0_0 : ∀ i : grid0.Coords, EltTy.bits .f32 = 32 ∨ (Rect.block (s := S16x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x2048x512.size a
  hwx0_1 : ∀ i : grid0.Coords, EltTy.bits .bf16 = 32 ∨ (Rect.block (s := S16x2048x512) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x2048x2048.size a
  hwx0_2 : ∀ i : grid0.Coords, EltTy.bits .f32 = 32 ∨ (Rect.block (s := S16x2048x2048) S1x512x2048.size (cc0_transform_2 i) (hinb0_2 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x2048, .f32⟩
  | .hbm, ⟨3, _⟩ => ⟨S_, .f32⟩
  | .hbm, ⟨4, _⟩ => ⟨S16x2048x2048, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048x1, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x512_S16x2048x512_S16x2048x2048_2_2_1_1_0_0_wf : DotDims.WF S16x2048x512 S16x2048x512 S16x2048x2048 [2] [2] [1] [1] [0] [0]

variable [Facts₀]

def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf

class Facts : Prop extends Facts₀ where

variable [Facts]
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.Softmax.lean ====
/-
  The mathematics both programs compute, stated once and free of either program.

  For arrays `q, k : [16, 2048, 512]` of extended reals and the scale `c` (the binary value of the f32 word
  `0x3D3504F3`, about 1/sqrt 512), the score of query row `n` against key row `m` in batch `b` is
  `(∑ d, q[b,n,d] · k[b,m,d]) · c`, and the result is the softmax of each row of scores:
  `exp (s m - max s) / ∑ m', exp (s m' - max s)`, the maximum a fold of `max` from `-∞`.

  One arrangement scales the sum, the other scales every left factor before summing. Over the extended reals
  a factor moves across a sum only where nothing is infinite, so the law that joins them (`scaled_sum`) is stated
  for real entries and a real scale, and proved in `ℝ`.
-/
import Idealize.ShloMosaic.PureOps.Ideal
import Idealize.ShloMosaic.PureOps.Ideal.Laws
import Idealize.ShloMosaic.Lib.ValueIdx
import proofs.«144719_j63548336111918_2_alg».proof.Proof.LibERealSum

noncomputable section

namespace Cert.Attn

open Idealize.ShloMosaic Idealize.ShloMosaic.ValueIdx

/-- The scale both programs spell as the same f32 word. -/
abbrev scale : EReal := Ideal.ofBits .f32 0x3D3504F3#32

/-- The f32 pattern of `-∞`, the value both row maxima start from. -/
abbrev negInf : EReal := Ideal.ofBits .f32 0xFF800000#32

/-- The scale is a real number (a normal f32 pattern: a dyadic rational). -/
theorem scale_real : ∃ r : ℝ, scale = (r : EReal) :=
  ⟨scale.toReal, (EReal.coe_toReal (by simp [scale, Ideal.ofBits, Ideal.ieee, -EReal.coe_mul])
    (by simp [scale, Ideal.ofBits, Ideal.ieee, -EReal.coe_mul])).symm⟩

/-- The f32 zero pattern is `0`. -/
theorem zero_word : Ideal.ofBits .f32 0x00000000#32 = 0 := by simp [Ideal.ofBits, Ideal.ieee]

/-- The maximum of a row of 2048 extended reals, folded from `-∞`. -/
def rowMax (s : Fin 2048 → EReal) : EReal := (Finset.univ : Finset (Fin 2048)).fold max negInf s

/-- Folding once more against the starting value changes nothing: the fold is already above it. -/
theorem max_negInf_rowMax (s : Fin 2048 → EReal) : max negInf (rowMax s) = rowMax s := by
  unfold rowMax
  exact max_eq_right ((Finset.le_fold_max _).2 (Or.inl le_rfl))

/-- The softmax of a row of 2048 scores, at position `m`. -/
def softmaxRow (s : Fin 2048 → EReal) (m : Fin 2048) : EReal :=
  Ideal.div (Ideal.exp (s m - rowMax s)) (∑ m' : Fin 2048, Ideal.exp (s m' - rowMax s))

/-- The score of query row `n` against key row `m` of batch `b`: the inner product over the 512 features, scaled. -/
def score (q k : (⟨3, ![16, 2048, 512]⟩ : Shape).Idx → EReal) (b : Fin 16) (n m : Fin 2048) : EReal :=
  (∑ d : Fin 512, q (ix3 b n d) * k (ix3 b m d)) * scale

/-- The whole result: entry `(b, n, m)` is the softmax over `m` of the scores of row `(b, n)`. -/
def probs (q k : (⟨3, ![16, 2048, 512]⟩ : Shape).Idx → EReal) : (⟨3, ![16, 2048, 2048]⟩ : Shape).Idx → EReal :=
  fun i => softmaxRow (score q k (i 0) (i 1)) (i 2)

theorem probs_ix3 (q k : (⟨3, ![16, 2048, 512]⟩ : Shape).Idx → EReal) (b : Fin 16) (n m : Fin 2048) :
    probs q k (ix3 b n m) = softmaxRow (score q k b n) m := rfl

/-- Scaling every left factor and then summing is scaling the sum, for real entries and a real scale:
    distributivity in `ℝ`. -/
theorem scaled_sum (a b : Fin 512 → ℝ) (r : ℝ) :
    ∑ d : Fin 512, ((a d : EReal) * (r : EReal)) * (b d : EReal)
      = (∑ d : Fin 512, (a d : EReal) * (b d : EReal)) * (r : EReal) := by
  simp only [← EReal.coe_mul, ← Cert.LibERealSum.coe_sum]
  exact congrArg _ (by rw [Finset.sum_mul]; exact Finset.sum_congr rfl fun d _ => by ring)

end Cert.Attn

end
-- ==== Proof.RefValue.lean ====
/-
  The reference's result, read one host operation at a time, is the softmax of the scaled inner products:
  entry `(b, n, m)` of its last buffer is `softmaxRow (score q k b n) m`.

  The inner product is the generated reading of the `dot_general` (batch axis 0, features contracted), multiplied
  by the broadcast scale; the row maximum is the host's `reduce` with `max` over the last axis, a fold of `max` over
  that axis's 2048 coordinates from `-∞`, then taken once more against `-∞`, which changes nothing; the
  denominator is the host's sum over the same axis from the zero word.
-/
import proofs.«144719_j63548336111918_2_alg».proof.Proof.Gen.ReferenceIdeal.Read
import proofs.«144719_j63548336111918_2_alg».proof.Proof.Softmax

noncomputable section

namespace Cert.Attn.Ref

open Cert.ReferenceIdeal Cert.ReferenceIdeal.Gen Cert.ReferenceIdeal.Read
open Idealize.ShloMosaic Idealize.ShloMosaic.ValueIdx Cert.Attn

variable (q k : (⟨S16x2048x512, .f32⟩ : BufTy).Contents (Elt Ideal))

/-- The last axis of a `[16, 2048, 2048]` array reduces to `[16, 2048]`. -/
theorem red_last : S16x2048x2048.Reduces [2] S16x2048 := by decide

/-- Inserting coordinate `m` on the reduced axis of `(b, n)` gives `(b, n, m)`. -/
theorem lift_ix2 (b : Fin 16) (n m : Fin 2048) : red_last.lift (ix2 b n) m = ix3 b n m :=
  funext fun a => Fin.ext (by match a with | ⟨0, _⟩ => rfl | ⟨1, _⟩ => rfl | ⟨2, _⟩ => rfl)

theorem lidx_ix3 (b : Fin 16) (n m : Fin 2048) (d : Fin 512) : lidx_main_v0 (ix3 b n m) d = ix3 b n d :=
  funext fun a => Fin.ext (by match a with | ⟨0, _⟩ => rfl | ⟨1, _⟩ => rfl | ⟨2, _⟩ => rfl)

theorem ridx_ix3 (b : Fin 16) (n m : Fin 2048) (d : Fin 512) : ridx_main_v0 (ix3 b n m) d = ix3 b m d :=
  funext fun a => Fin.ext (by match a with | ⟨0, _⟩ => rfl | ⟨1, _⟩ => rfl | ⟨2, _⟩ => rfl)

theorem idx_row (b : Fin 16) (n m : Fin 2048) : idx_main_v6 (idx_main_v7 (ix3 b n m)) = ix2 b n :=
  funext fun a => Fin.ext (by match a with | ⟨0, _⟩ => rfl | ⟨1, _⟩ => rfl)

theorem idx_row' (b : Fin 16) (n m : Fin 2048) : idx_main_v11 (idx_main_v12 (ix3 b n m)) = ix2 b n :=
  funext fun a => Fin.ext (by match a with | ⟨0, _⟩ => rfl | ⟨1, _⟩ => rfl)

theorem idx_col (b : Fin 16) (n m : Fin 2048) : idx_main_v10 (ix2 b n) m = ix3 b n m :=
  funext fun a => Fin.ext (by match a with | ⟨0, _⟩ => rfl | ⟨1, _⟩ => rfl | ⟨2, _⟩ => rfl)

/-- The scaled product buffer holds the scores. -/
theorem scores_apply (b : Fin 16) (n m : Fin 2048) :
    val_main_v2 (F := Ideal) q k (ix3 b n m) = score q k b n m := by
  rw [val_main_v2_apply, val_main_v0_apply, val_main_v1_apply, val_main_cst_apply]
  simp only [lidx_ix3, ridx_ix3]
  rfl

/-- The row maximum buffer holds each row's maximum of the scores. -/
theorem rowMax_apply (b : Fin 16) (n : Fin 2048) :
    val_main_v5 (F := Ideal) q k (ix2 b n) = rowMax (score q k b n) := by
  have h3 : val_main_v3 (F := Ideal) q k (ix2 b n) = rowMax (score q k b n) := by
    unfold val_main_v3
    rw [Host.reduce_eq_fold_single FloatOps.maximumf _ _ reducesTo_S16x2048x2048_S16x2048_d2 red_last h_S_ (ix2 b n)]
    have e : (val_main_v2 (F := Ideal) q k ∘ red_last.lift (ix2 b n)) = score q k b n := funext fun (m' : Fin 2048) => by
      show val_main_v2 (F := Ideal) q k (red_last.lift (ix2 b n) m') = _
      rw [lift_ix2]
      exact scores_apply q k b n m'
    rw [e]
    rfl
  rw [val_main_v5_apply, val_main_v4_apply, val_main_cst_1_apply, h3]
  exact max_negInf_rowMax _

/-- The exponential buffer: `exp` of a score less its row's maximum. -/
theorem exp_apply (b : Fin 16) (n m : Fin 2048) :
    val_main_v9 (F := Ideal) q k (ix3 b n m) = Ideal.exp (score q k b n m - rowMax (score q k b n)) := by
  rw [val_main_v9_apply, val_main_v8_apply, val_main_v7_apply, val_main_v6_apply, idx_row, rowMax_apply, scores_apply]
  rfl

/-- The denominator buffer: the sum of a row's exponentials. -/
theorem sum_apply (b : Fin 16) (n : Fin 2048) :
    val_main_v10 (F := Ideal) q k (ix2 b n) = ∑ m' : Fin 2048, Ideal.exp (score q k b n m' - rowMax (score q k b n)) := by
  rw [val_main_v10_apply, val_main_cst_2_apply]
  simp only [idx_col, exp_apply]
  rw [Ideal.ofBits_def, zero_word, zero_add]

/-- The reference's last stage is the softmax of the scores, as one function of the two arguments. -/
theorem result_eq : val_main_v13 (F := Ideal) q k = probs q k := by
  funext i
  obtain ⟨b, n, m, rfl⟩ : ∃ (b : Fin 16) (n m : Fin 2048), i = ix3 b n m := ⟨i 0, i 1, i 2, eq_ix3 i⟩
  rw [val_main_v13_apply, val_main_v12_apply, val_main_v11_apply, idx_row', sum_apply, exp_apply, probs_ix3]
  rfl

end Cert.Attn.Ref

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Payload.lean ====
/-
  What the kernel body stores for one grid point, index by index, at the ideal values.

  The body loads a `[1, 512, 512]` block of queries and a `[1, 2048, 512]` block of keys, scales every query entry,
  contracts the two blocks over the 512 features into a `[512, 2048]` block of scores (a matrix product into a zero
  accumulator: just the sum of products), and stores the row-wise softmax of that block: the row maximum by a
  lane reduction with `max` from `-∞`, kept as a column and broadcast back over the row; the exponentials of the
  differences; their row sums by a lane reduction with `+`, again kept as a column and broadcast; the quotient.

  The payload is cut here into the block of scores and the softmax of a block, each read at explicit coordinates;
  the rounding to bf16 on the way into the matrix unit is the identity at the ideal values.
-/
import proofs.«144719_j63548336111918_2_alg».proof.Proof.Gen.KernelIdeal.Skeleton
import proofs.«144719_j63548336111918_2_alg».proof.Proof.Softmax
import Idealize.ShloMosaic.Lib.ValueIdx
import Idealize.ShloMosaic.Lib.ValueLayout
import Idealize.ShloMosaic.Lib.Pipeline.Value
import Idealize.ShloMosaic.PureOps.Ideal.Laws
import proofs.«144719_j63548336111918_2_alg».proof.Proof.LibKeepdims

noncomputable section

namespace Cert.Attn.Ker

open Cert.KernelIdeal Cert.KernelIdeal.Gen
open Idealize.ShloMosaic Idealize.ShloMosaic.ValueIdx Cert.Attn

/-! ## The block of scores -/

/-- The body's matrix product, as the printed payload spells it: the scaled query block, rounded to bf16, against the key
    block, into the zero accumulator. -/
def blockScores (x0 : Vec Ideal S1x512x512 .f32) (x1 : Vec Ideal S1x2048x512 .bf16) : FVec Ideal S512x2048 .f32 :=
  matmul dot_S512x512_S2048x512_S512x2048_1_1_0_0_n_n none
    (truncf .bf16 (mulf (shapeCast S512x512 x0 shapeCasts_S1x512x512_S512x512 : FVec Ideal S512x512 .f32)
      (broadcast S512x512 (Scalar.ofBits .f32 0x3D3504F3#32))) bitsLt_bf16_f32 : FVec Ideal S512x512 .bf16)
    (shapeCast S2048x512 x1 shapeCasts_S1x2048x512_S2048x512 : FVec Ideal S2048x512 .bf16)
    (constant S512x2048 .f32 0x00000000#32)

theorem lhs_row (i : S512x2048.Idx) (c : dot_S512x512_S2048x512_S512x2048_1_1_0_0_n_n.contr.Idx) : (dot_S512x512_S2048x512_S512x2048_1_1_0_0_n_n.lhsIdx i c 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

theorem lhs_feature (i : S512x2048.Idx) (c : dot_S512x512_S2048x512_S512x2048_1_1_0_0_n_n.contr.Idx) : (dot_S512x512_S2048x512_S512x2048_1_1_0_0_n_n.lhsIdx i c 1).val = (c ⟨0, by decide⟩).val :=
  dot_S512x512_S2048x512_S512x2048_1_1_0_0_n_n.lhsIdx_val_of_single rfl i c

theorem rhs_row (i : S512x2048.Idx) (c : dot_S512x512_S2048x512_S512x2048_1_1_0_0_n_n.contr.Idx) : (dot_S512x512_S2048x512_S512x2048_1_1_0_0_n_n.rhsIdx i c 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

theorem rhs_feature (i : S512x2048.Idx) (c : dot_S512x512_S2048x512_S512x2048_1_1_0_0_n_n.contr.Idx) : (dot_S512x512_S2048x512_S512x2048_1_1_0_0_n_n.rhsIdx i c 1).val = (c ⟨0, by decide⟩).val :=
  dot_S512x512_S2048x512_S512x2048_1_1_0_0_n_n.rhsIdx_val_of_single rfl i c

/-- Entry `(r, m)` of the block of scores: the sum over the features of the scaled query entry times the key entry. -/
theorem blockScores_apply (x0 : Vec Ideal S1x512x512 .f32) (x1 : Vec Ideal S1x2048x512 .bf16) (r : Fin 512) (m : Fin 2048) :
    blockScores x0 x1 (ix2 r m)
      = ∑ d : Fin 512, (x0 (ix3 (0 : Fin 1) r d) * scale) * x1 (ix3 (0 : Fin 1) m d) := by
  unfold blockScores
  simp only [matmul]
  refine (Ideal.matmul_constant_zero_apply _ none _ _ _).trans ?_
  rw [← Equiv.sum_comp (contrEquiv1 dot_S512x512_S2048x512_S512x2048_1_1_0_0_n_n 512 rfl rfl).symm]
  refine Finset.sum_congr rfl fun d _ => ?_
  have hk := contrEquiv1_symm_val dot_S512x512_S2048x512_S512x2048_1_1_0_0_n_n 512 rfl rfl d
  have el : dot_S512x512_S2048x512_S512x2048_1_1_0_0_n_n.lhsIdx (ix2 r m) ((contrEquiv1 dot_S512x512_S2048x512_S512x2048_1_1_0_0_n_n 512 rfl rfl).symm d) = ix2 r d := funext fun a => Fin.ext (by
    match a with
    | ⟨0, _⟩ => exact lhs_row _ _
    | ⟨1, _⟩ => exact (lhs_feature _ _).trans hk)
  have er : dot_S512x512_S2048x512_S512x2048_1_1_0_0_n_n.rhsIdx (ix2 r m) ((contrEquiv1 dot_S512x512_S2048x512_S512x2048_1_1_0_0_n_n 512 rfl rfl).symm d) = ix2 m d := funext fun a => Fin.ext (by
    match a with
    | ⟨0, _⟩ => exact rhs_row _ _
    | ⟨1, _⟩ => exact (rhs_feature _ _).trans hk)
  rw [el, er]
  refine congrArg₂ (· * ·) ?_ (shapeCast_1ab_ab_apply x1 _ m d)
  show shapeCast S512x512 x0 _ (ix2 r d) * scale = _
  rw [shapeCast_1ab_ab_apply]

/-! ## The softmax of a block of scores -/

/-- Each row's maximum, broadcast back over the row. -/
def blockMax (s : FVec Ideal S512x2048 .f32) : FVec Ideal S512x2048 .f32 :=
  broadcastTo S512x2048 (shapeCast S512x1
    (multiReduction .maximumf [1] S512 s 0xFF800000#32 reduces_S512x2048_S512 (.inl rfl) rfl) shapeCasts_S512_S512x1)
    broadcasts_S512x1_S512x2048

/-- The exponentials of the scores less their row's maximum. -/
def blockExp (s : FVec Ideal S512x2048 .f32) : FVec Ideal S512x2048 .f32 := exp (subf s (blockMax s))

/-- Each row's sum of exponentials, broadcast back over the row. -/
def blockSum (s : FVec Ideal S512x2048 .f32) : FVec Ideal S512x2048 .f32 :=
  broadcastTo S512x2048 (shapeCast S512x1
    (multiReduction .add [1] S512 (blockExp s) 0x00000000#32 reduces_S512x2048_S512 (.inl rfl) rfl) shapeCasts_S512_S512x1)
    broadcasts_S512x1_S512x2048

/-- The stored block: the quotients, with the leading unit axis put back. -/
def blockSoftmax (s : FVec Ideal S512x2048 .f32) : FVec Ideal S1x512x2048 .f32 :=
  shapeCast S1x512x2048 (divf (blockExp s) (blockSum s)) shapeCasts_S512x2048_S1x512x2048

/-- The printed payload is the softmax of the block of scores. -/
theorem payload_eq (x0 : Vec Ideal S1x512x512 .f32) (x1 : Vec Ideal S1x2048x512 .bf16) :
    k0_pay1 (F := Ideal) x0 x1 = blockSoftmax (blockScores x0 x1) := rfl

/-- Inserting coordinate `m` on the reduced lane axis of row `r` gives `(r, m)`. -/
theorem lift_row (h : S512x2048.Reduces [1] S512) (r : Fin 512) (m : Fin 2048) : h.lift (ix1 r) m = ix2 r m :=
  funext fun a => Fin.ext (by match a with | ⟨0, _⟩ => rfl | ⟨1, _⟩ => rfl)

theorem blockMax_apply (s : FVec Ideal S512x2048 .f32) (r : Fin 512) (m : Fin 2048) :
    blockMax s (ix2 r m) = rowMax (fun m' => s (ix2 r m')) := by
  unfold blockMax
  refine (Cert.LibKeepdims.broadcastTo_a1_ab_apply _ _ r m).trans ((Cert.LibKeepdims.shapeCast_a_a1_apply _ _ r 0).trans ?_)
  refine (Ideal.multiReduction_maximumf_single s _ reduces_S512x2048_S512 (.inl rfl) rfl (ix1 r)).trans ?_
  have e : (s ∘ reduces_S512x2048_S512.lift (ix1 r)) = fun m' : Fin 2048 => s (ix2 r m') :=
    funext fun (m' : Fin 2048) => congrArg s (lift_row _ r m')
  rw [e]
  rfl

theorem blockExp_apply (s : FVec Ideal S512x2048 .f32) (r : Fin 512) (m : Fin 2048) :
    blockExp s (ix2 r m) = Ideal.exp (s (ix2 r m) - rowMax (fun m' => s (ix2 r m'))) := by
  show Ideal.exp (s (ix2 r m) - blockMax s (ix2 r m)) = _
  rw [blockMax_apply]

theorem blockSum_apply (s : FVec Ideal S512x2048 .f32) (r : Fin 512) (m : Fin 2048) :
    blockSum s (ix2 r m) = ∑ m' : Fin 2048, Ideal.exp (s (ix2 r m') - rowMax (fun m'' => s (ix2 r m''))) := by
  unfold blockSum
  refine (Cert.LibKeepdims.broadcastTo_a1_ab_apply _ _ r m).trans ((Cert.LibKeepdims.shapeCast_a_a1_apply _ _ r 0).trans ?_)
  refine (Ideal.multiReduction_add_single (blockExp s) _ reduces_S512x2048_S512 (.inl rfl) rfl (ix1 r)).trans ?_
  refine Finset.sum_congr rfl fun (m' : Fin 2048) _ => ?_
  rw [lift_row, blockExp_apply]

/-- Entry `(0, r, m)` of the stored block is the softmax of row `r` of the scores at `m`. -/
theorem blockSoftmax_apply (s : FVec Ideal S512x2048 .f32) (u : Fin 1) (r : Fin 512) (m : Fin 2048) :
    blockSoftmax s (ix3 u r m) = softmaxRow (fun m' => s (ix2 r m')) m := by
  unfold blockSoftmax
  refine (shapeCast_ab_1ab_apply _ _ u r m).trans ?_
  show Ideal.div (blockExp s (ix2 r m)) (blockSum s (ix2 r m)) = _
  rw [blockExp_apply, blockSum_apply]
  rfl

/-- The payload at `(0, r, m)`: the softmax over `m` of row `r`'s sums of scaled products. -/
theorem payload_apply (x0 : Vec Ideal S1x512x512 .f32) (x1 : Vec Ideal S1x2048x512 .bf16) (u : Fin 1) (r : Fin 512) (m : Fin 2048) :
    k0_pay1 (F := Ideal) x0 x1 (ix3 u r m)
      = softmaxRow (fun m' => ∑ d : Fin 512, (x0 (ix3 (0 : Fin 1) r d) * scale) * x1 (ix3 (0 : Fin 1) m' d)) m := by
  rw [payload_eq, blockSoftmax_apply]
  exact congrArg (fun s => softmaxRow s m) (funext fun m' => blockScores_apply x0 x1 r m')

end Cert.Attn.Ker

end
-- ==== Proof.Blocks.lean ====
/-
  From blocks to the whole array: after the run the kernel's result array is the softmax of the scaled inner
  products, as one function of the two argument arrays.

  Grid point `t = (b, g)` stages rows `512 g … 512 g + 511` of batch `b` of the queries, all 2048 rows of batch `b` of the
  keys, and writes back rows `512 g … 512 g + 511` of batch `b` of the result. The keys reach the region through a
  rounding to bf16 on the host, the identity at the ideal values. So what point `t` writes at `(0, r, m)` is the
  softmax over `m` of `∑ d, (q[b, 512 g + r, d] · c) · k[b, m, d]`; with every entry of both arguments a real number
  the scale moves out of the sum, and that is entry `(b, 512 g + r, m)` of `probs q k`. The 64 blocks tile the array:
  row `n` of batch `b` lies in the block of the point `(b, n / 512)`.
-/
import proofs.«144719_j63548336111918_2_alg».proof.Proof.Gen.KernelIdeal.Value
import proofs.«144719_j63548336111918_2_alg».proof.Proof.Payload
import Idealize.ShloMosaic.Lib.Pipeline.Value
import Idealize.ShloMosaic.Lib.StableHlo.Run

noncomputable section

namespace Cert.Attn.Ker

open Cert.KernelIdeal Cert.KernelIdeal.Gen Cert.KernelIdeal.Value
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps over the 64 grid points: the query window moves with the output window on the batch and row
    axes, the key window on the batch axis only, every other block index is zero, and the output's stay in range. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 15 ∧ win0_2.index t (1 : Fin 3) ≤ 3 :=
  (by decide +kernel : ∀ t : Fin grid0.N, _)

/-- Every block of the result is some point's. -/
theorem index_onto : ∀ (b : Fin 16) (g : Fin 4), ∃ t : Fin cfg0.N, win0_2.index t = ![b.val, g.val, 0] :=
  (by decide +kernel : ∀ (b : Fin 16) (g : Fin 4), ∃ t : Fin grid0.N, win0_2.index t = ![b.val, g.val, 0])

/-- The region finds the keys rounded to bf16 by the host; at the ideal values that is the keys' array as launched. -/
theorem keys_at_entry (c : Dev nD) :
    @Eq (S16x2048x512.Idx → EReal) (V m c main_v0) (m ((c : Thread nD τ).loc main_arg1)) := by
  have e : @Eq (FVec Ideal S16x2048x512 .bf16) (V m c main_v0)
      (truncf .bf16 (show FVec Ideal S16x2048x512 .f32 from m ((c : Thread nD τ).loc main_arg1)) bitsLt_bf16_f32) := by
    dsimp only [Gen.V, Gen.hostOps0]; after_results
  exact e

/-- An entry of the query window's block at point `t` is the queries' entry at block index times block size plus the
    coordinate inside the block, on each axis. -/
theorem query_block (c : Dev nD) (t : Fin cfg0.N) (x : S1x512x512.Idx) (i : S16x2048x512.Idx)
    (h0 : (i 0).val = win0_0.index t (0 : Fin 3) * 1 + (x 0).val)
    (h1 : (i 1).val = win0_0.index t (1 : Fin 3) * 512 + (x 1).val)
    (h2 : (i 2).val = win0_0.index t (2 : Fin 3) * 512 + (x 2).val) :
    (iblk m c 0 t : Vec Ideal S1x512x512 .f32) x = (m ((c : Thread nD τ).loc main_arg0) : S16x2048x512.Idx → EReal) i := by
  unfold iblk
  rw [View.read_apply]
  show V m c main_arg0 _ = _
  rw [V_main_arg0]
  congr 1
  funext a
  apply Fin.ext
  match a with
  | ⟨0, _⟩ => show win0_0.index t (0 : Fin 3) * 1 + 1 * (x 0).val = (i 0).val; omega
  | ⟨1, _⟩ => show win0_0.index t (1 : Fin 3) * 512 + 1 * (x 1).val = (i 1).val; omega
  | ⟨2, _⟩ => show win0_0.index t (2 : Fin 3) * 512 + 1 * (x 2).val = (i 2).val; omega

/-- The same for the key window's block, through the host's rounding. -/
theorem key_block (c : Dev nD) (t : Fin cfg0.N) (x : S1x2048x512.Idx) (i : S16x2048x512.Idx)
    (h0 : (i 0).val = win0_1.index t (0 : Fin 3) * 1 + (x 0).val)
    (h1 : (i 1).val = win0_1.index t (1 : Fin 3) * 2048 + (x 1).val)
    (h2 : (i 2).val = win0_1.index t (2 : Fin 3) * 512 + (x 2).val) :
    (iblk m c 1 t : Vec Ideal S1x2048x512 .bf16) x = (m ((c : Thread nD τ).loc main_arg1) : S16x2048x512.Idx → EReal) i := by
  unfold iblk
  rw [View.read_apply]
  show (V m c main_v0 : S16x2048x512.Idx → EReal) _ = _
  rw [keys_at_entry]
  congr 1
  funext a
  apply Fin.ext
  match a with
  | ⟨0, _⟩ => show win0_1.index t (0 : Fin 3) * 1 + 1 * (x 0).val = (i 0).val; omega
  | ⟨1, _⟩ => show win0_1.index t (1 : Fin 3) * 2048 + 1 * (x 1).val = (i 1).val; omega
  | ⟨2, _⟩ => show win0_1.index t (2 : Fin 3) * 512 + 1 * (x 2).val = (i 2).val; omega

/-- One point's stored value against the whole-array function, over any blocks that hold the rows named: with real
    entries the scale moves out of the sum over the features. -/
theorem point_value (Q K : S16x2048x512.Idx → EReal) (hQ : ∀ i, ∃ r : ℝ, Q i = (r : EReal)) (hK : ∀ i, ∃ r : ℝ, K i = (r : EReal))
    (x0 : Vec Ideal S1x512x512 .f32) (x1 : Vec Ideal S1x2048x512 .bf16) (b : Fin 16) (n0 : Nat) (hn0 : n0 + 512 ≤ 2048)
    (h0 : ∀ (r : Fin 512) (d : Fin 512), x0 (ix3 (0 : Fin 1) r d) = Q (ix3 b (⟨n0 + r.val, by omega⟩ : Fin 2048) d))
    (h1 : ∀ (m' : Fin 2048) (d : Fin 512), x1 (ix3 (0 : Fin 1) m' d) = K (ix3 b m' d))
    (u : Fin 1) (r : Fin 512) (m' : Fin 2048) :
    k0_pay1 (F := Ideal) x0 x1 (ix3 u r m') = probs Q K (ix3 b (⟨n0 + r.val, by omega⟩ : Fin 2048) m') := by
  rw [payload_apply, probs_ix3]
  refine congrArg (fun s => softmaxRow s m') (funext fun m'' => ?_)
  unfold score
  obtain ⟨sc, hsc⟩ := scale_real
  choose qr hqr using hQ
  choose kr hkr using hK
  simp only [h0, h1, hqr, hkr, hsc]
  exact scaled_sum _ _ sc

/-- WHAT POINT `t` WRITES BACK is its block of `probs` of the two arguments, when every entry of both is a real number. -/
theorem flushed_eq (c : Dev nD)
    (hQ : ∀ i, ∃ r : ℝ, (m ((c : Thread nD τ).loc main_arg0) : S16x2048x512.Idx → EReal) i = (r : EReal))
    (hK : ∀ i, ∃ r : ℝ, (m ((c : Thread nD τ).loc main_arg1) : S16x2048x512.Idx → EReal) i = (r : EReal))
    (t : Fin cfg0.N) :
    (dats m 0 c).flushed 2 t = ((cfg0.win 2).blk t).view.read (Elt Ideal)
      (probs (m ((c : Thread nD τ).loc main_arg0)) (m ((c : Thread nD τ).loc main_arg1))) := by
  rw [flushed2]
  unfold out0_2
  rw [View.canon_unit_zero zero_offsets]
  simp only [View.ld_unit_zero (S := S1x512x512) zero_offsets, View.ld_unit_zero (S := S1x2048x512) zero_offsets]
  obtain ⟨e00, e01, e02, e10, e11, e12, e22, hb, hg⟩ := index_facts t
  funext j
  rw [View.read_apply]
  have hj0 : (j 0).val < 1 := (j 0).isLt
  have hj1 : (j 1).val < 512 := (j 1).isLt
  have hj2 : (j 2).val < 2048 := (j 2).isLt
  have hpoint := point_value _ _ hQ hK (iblk m c 0 t) (iblk m c 1 t) (⟨win0_2.index t (0 : Fin 3), by omega⟩ : Fin 16)
    (win0_2.index t (1 : Fin 3) * 512) (by omega)
    (fun r d => query_block m c t _ _
      (by show win0_2.index t (0 : Fin 3) = win0_0.index t (0 : Fin 3) * 1 + 0; omega)
      (by show win0_2.index t (1 : Fin 3) * 512 + r.val = win0_0.index t (1 : Fin 3) * 512 + r.val; omega)
      (by show d.val = win0_0.index t (2 : Fin 3) * 512 + d.val; omega))
    (fun m' d => key_block m c t _ _
      (by show win0_2.index t (0 : Fin 3) = win0_1.index t (0 : Fin 3) * 1 + 0; omega)
      (by show m'.val = win0_1.index t (1 : Fin 3) * 2048 + m'.val; omega)
      (by show d.val = win0_1.index t (2 : Fin 3) * 512 + d.val; omega))
    (⟨(j 0).val, hj0⟩ : Fin 1) (⟨(j 1).val, hj1⟩ : Fin 512) (⟨(j 2).val, hj2⟩ : Fin 2048)
  refine Eq.trans ?_ (hpoint.trans (congrArg _ ?_))
  · exact congrArg (k0_pay1 (F := Ideal) (iblk m c 0 t) (iblk m c 1 t))
      (funext fun a => Fin.ext (by match a with | ⟨0, _⟩ => rfl | ⟨1, _⟩ => rfl | ⟨2, _⟩ => rfl))
  · funext a
    apply Fin.ext
    match a with
    | ⟨0, _⟩ => show win0_2.index t (0 : Fin 3) = win0_2.index t (0 : Fin 3) * 1 + 1 * (j 0).val; omega
    | ⟨1, _⟩ => show win0_2.index t (1 : Fin 3) * 512 + (j 1).val = win0_2.index t (1 : Fin 3) * 512 + 1 * (j 1).val; omega
    | ⟨2, _⟩ => show (j 2).val = win0_2.index t (2 : Fin 3) * 2048 + 1 * (j 2).val; omega

/-- Every index of the result array lies in some point's block: row `n` of batch `b` in that of the point `(b, n / 512)`. -/
theorem covered (i : S16x2048x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 2048 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  show i ∈ ((View.whole main_v1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- THE ARRAY after the run is `probs` of the two arguments. -/
theorem final (c : Dev nD)
    (hQ : ∀ i, ∃ r : ℝ, (m ((c : Thread nD τ).loc main_arg0) : S16x2048x512.Idx → EReal) i = (r : EReal))
    (hK : ∀ i, ∃ r : ℝ, (m ((c : Thread nD τ).loc main_arg1) : S16x2048x512.Idx → EReal) i = (r : EReal)) :
    (dats m 0 c).arrAt 2 cfg0.N = probs (m ((c : Thread nD τ).loc main_arg0)) (m ((c : Thread nD τ).loc main_arg1)) :=
  (dats m 0 c).arrAt_eq_of_cover 2 _ (fun t _ => flushed_eq m c hQ hK t) covered

/-- The kernel's run, read: the result array at `probs` of the arguments, the arguments unchanged. -/
theorem run
    (hfin : ∀ c : Dev nD, (∀ i, ∃ r : ℝ, (m ((c : Thread nD τ).loc main_arg0) : S16x2048x512.Idx → EReal) i = (r : EReal))
      ∧ (∀ i, ∃ r : ℝ, (m ((c : Thread nD τ).loc main_arg1) : S16x2048x512.Idx → EReal) i = (r : EReal))) :
    θ_run defs (onTc (τ := τ) (main (F := Ideal))) ⟨m, fun _ => 0, ρ⟩ fun r => ∀ c : Dev nD,
      r.2.mem ((c : Thread nD τ).loc main_v1) = probs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩)
    (run_blocks m ρ)

end Cert.Attn.Ker

end
-- ==== Proof.Finite.lean ====
/-
  The precondition read back: every entry of both argument arrays is a real number.

  The precondition compares the absolute value of every entry of each argument with the f32 pattern of `+∞`, takes the
  conjunction over each whole array, and asks that both come out true. A conjunction over a whole array that is true
  was true at every entry; and an extended real whose absolute value `max x (-x)` lies strictly below `⊤` is neither
  `⊤` nor `⊥`.
-/
import proofs.«144719_j63548336111918_2_alg».proof.Proof.Gen.Pre_finite_inputs
import Idealize.ShloMosaic.Lib.ReduceAll
import Idealize.ShloMosaic.Lib.ValueIdx
import Idealize.ShloMosaic.PureOps.Ideal.Laws

noncomputable section

namespace Cert.Attn.Pre

open Idealize.ShloMosaic Cert.Pre_finite_inputs Cert.Pre_finite_inputs.Gen

instance : Subsingleton S_.Idx := ⟨fun a b => funext fun d => d.elim0⟩

/-- The f32 pattern `0x7F800000` is `+∞`. -/
theorem inf_word : Ideal.ofBits .f32 0x7F800000#32 = ⊤ := by simp [Ideal.ofBits, Ideal.ieee]

/-- An extended real whose absolute value compares strictly below `+∞` is a real number. -/
theorem real_of_abs_lt_inf (x : EReal)
    (h : FloatOps.cmpf (F := Ideal) (φ := .f32) .olt (FloatOps.hostAbsf x) (Ideal.ofBits .f32 0x7F800000#32) = 1#1) :
    ∃ r : ℝ, x = (r : EReal) := by
  rw [Ideal.cmpf_def, Ideal.hostAbsf_def, Ideal.absf_def, inf_word] at h
  induction x using EReal.rec with
  | bot => simp [Ideal.cmp] at h
  | coe r => exact ⟨r, rfl⟩
  | top => simp [Ideal.cmp] at h

/-- Under the precondition every entry of both arguments is a real number. -/
theorem entries_real (q k : FVec Ideal S16x2048x512 .f32) (h : fn (F := Ideal) q k = fun _ => 1#1) :
    (∀ i, ∃ r : ℝ, q i = (r : EReal)) ∧ (∀ i, ∃ r : ℝ, k i = (r : EReal)) := by
  have h0 := congrFun h ValueIdx.ix0
  dsimp only [fn] at h0
  obtain ⟨ha, hb⟩ := IntOp.andi_eq_one.1 h0
  exact ⟨fun i => real_of_abs_lt_inf _ (Host.reduce_andi_all _ _ _ _ _ ha i),
    fun i => real_of_abs_lt_inf _ (Host.reduce_andi_all _ _ _ _ _ hb i)⟩

end Cert.Attn.Pre

end
-- ==== Proof.lean ====
/-
  Attention probabilities: `softmax (q kᵀ · c)` over the last axis, for `q, k : [16, 2048, 512]` and the scale `c` both
  programs spell as the f32 word `0x3D3504F3`.

  The kernel works one `[512, 2048]` block of the result at a time: it scales a block of 512 query rows, contracts it
  with all 2048 key rows of the batch over the 512 features, and stores the row-wise softmax. The reference contracts
  the whole arrays, scales the scores, and takes the softmax with the host's reductions. At the ideal values the
  roundings to bf16 are the identity and both softmaxes are one function of a row of scores (a maximum folded from
  `-∞`, exponentials of the differences, their sum, the quotient), so the two results differ only in where the scale
  sits: `∑ d, (q · c) · k` against `(∑ d, q · k) · c`. Those agree when every entry is a real number — which the
  precondition gives — by distributivity in `ℝ`; over the extended reals at large they need not.

  Softmax.lean states the common function and the law; RefValue.lean reads the reference's stages as that function;
  Payload.lean reads one grid point's stored block; Blocks.lean assembles the blocks into the array; Finite.lean reads
  the precondition back as "every entry is real". Nothing was rewritten by the idealization, so `preserves` is trivial.
-/
import proofs.«144719_j63548336111918_2_alg».proof.Defs
import proofs.«144719_j63548336111918_2_alg».proof.Proof.Gen.Kernel
import proofs.«144719_j63548336111918_2_alg».proof.Proof.Gen.Kernel.Skeleton
import proofs.«144719_j63548336111918_2_alg».proof.Proof.Gen.Kernel.Launch
import proofs.«144719_j63548336111918_2_alg».proof.Proof.Gen.Kernel.Points
import proofs.«144719_j63548336111918_2_alg».proof.Proof.Gen.Kernel.Frame
import proofs.«144719_j63548336111918_2_alg».proof.Proof.Gen.KernelIdeal
import proofs.«144719_j63548336111918_2_alg».proof.Proof.Gen.KernelIdeal.Skeleton
import proofs.«144719_j63548336111918_2_alg».proof.Proof.Gen.KernelIdeal.Launch
import proofs.«144719_j63548336111918_2_alg».proof.Proof.Gen.KernelIdeal.Points
import proofs.«144719_j63548336111918_2_alg».proof.Proof.Gen.KernelIdeal.Frame
import proofs.«144719_j63548336111918_2_alg».proof.Proof.Gen.ReferenceIdeal
import proofs.«144719_j63548336111918_2_alg».proof.Proof.Gen.Pre_finite_inputs
import proofs.«144719_j63548336111918_2_alg».proof.Proof.Gen.KernelIdeal.Value
import proofs.«144719_j63548336111918_2_alg».proof.Proof.Gen.ReferenceIdeal.Run
import proofs.«144719_j63548336111918_2_alg».proof.Proof.Gen.ReferenceIdeal.Read
import proofs.«144719_j63548336111918_2_alg».proof.Proof.Softmax
import proofs.«144719_j63548336111918_2_alg».proof.Proof.RefValue
import proofs.«144719_j63548336111918_2_alg».proof.Proof.Payload
import proofs.«144719_j63548336111918_2_alg».proof.Proof.Blocks
import proofs.«144719_j63548336111918_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- The same of the kernel read at the ideal values. -/
theorem frame_kernelIdeal : Cert.frame_KernelIdeal := fun m ρ _ => Cert.KernelIdeal.Gen.frame m ρ

/-- The reference is host operations only: its generated run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `q` and `k`, all of whose entries are real numbers, both programs end with the result
    array at `probs q k`: the kernel's blocks assembled, the reference's stages read one by one. -/
theorem algebraic : Cert.algebraic_KernelIdeal_ReferenceIdeal := by
  intro m ρ m' ρ' hpre hagree
  have hfin := fun c => Cert.Attn.Pre.entries_real _ _ (hpre c)
  refine ⟨fun c => Cert.Attn.probs (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Attn.Ker.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Attn.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
